-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x4096 : Shape := ⟨2, ![1024, 4096]⟩
abbrev S1024x12 : Shape := ⟨2, ![1024, 12]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1024x12 : S_.BroadcastsInDim S1024x12 (![] : Fin 0 → Fin S1024x12.rank)
  reducesTo_S1024x12_S_d0_1 : S1024x12.ReducesTo [0, 1] S_

variable [Facts]

def fn {F : FTy → Type} [FloatOps F] (main_arg0 : FVec F S4096x1024 .f32) (main_arg1 : FVec F S1024x4096 .f32) (main_arg2 : FVec F S1024x12 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1024x12 .f32 := Host.absf main_arg2
  let main_cst_2 : FVec F S_ .f32 := constant S_ .f32 0x7F800000#32
  let main_v10 : FVec F S1024x12 .f32 := broadcastInDim S1024x12 ![] bcast_S_S1024x12 main_cst_2
  let main_v11 : IVec S1024x12 1 := cmpf .olt main_v9 main_v10
  let main_c_3 : IVec S_ 1 := constantI S_ 1 1#1
  let main_v12 : IVec S_ 1 := (fun x v => Host.reduce IntOp.andi x v reducesTo_S1024x12_S_d0_1 h_S_) main_v11 main_c_3
  let main_v13 : IVec S_ 1 := andi main_v8 main_v12
  main_v13
-- ==== Kernel.lean ====
abbrev S4096x1024 : Shape := ⟨2, ![4096, 1024]⟩
abbrev S1024x4096 : Shape := ⟨2, ![1024, 4096]⟩
abbrev S1024x12 : Shape := ⟨2, ![1024, 12]⟩
abbrev S_ : Shape := ⟨0, ![]⟩
abbrev S1024 : Shape := ⟨1, ![1024]⟩
abbrev S1x1024 : Shape := ⟨2, ![1, 1024]⟩
abbrev S4096x4096 : Shape := ⟨2, ![4096, 4096]⟩
abbrev S256x1024 : Shape := ⟨2, ![256, 1024]⟩
abbrev S256x4096 : Shape := ⟨2, ![256, 4096]⟩

abbrev nBuf : Space → Nat
  | .hbm => 11
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S1024x12, .f32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S1024x4096, .bf16⟩
  | .hbm, ⟨10, _⟩ => ⟨S4096x4096, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S256x4096, .f32⟩
  | .local _ .vmem, ⟨5, _⟩ => ⟨S256x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S1024x12_S1024_d1 : S1024x12.ReducesTo [1] S1024
  h_S_ : 0 < S_.numel
  bcast_S_S1024 : S_.BroadcastsInDim S1024 (![] : Fin 0 → Fin S1024.rank)
  shapeCasts_S1024_S1x1024 : S1024.ShapeCasts S1x1024
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S1024x4096.size a
  hwx0_2 : ∀ i : grid0.Coords, EltTy.bits .bf16 = 32 ∨ (Rect.block (s := S1024x4096) S1024x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .f32 = 32 ∨ (Rect.block (s := S4096x4096) S256x4096.size (cc0_transform_3 i) (hinb0_3 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x4096 : Shape := ⟨2, ![1024, 4096]⟩
abbrev S1024x12 : Shape := ⟨2, ![1024, 12]⟩
abbrev S_ : Shape := ⟨0, ![]⟩
abbrev S1024 : Shape := ⟨1, ![1024]⟩
abbrev S1x1024 : Shape := ⟨2, ![1, 1024]⟩
abbrev S4096x4096 : Shape := ⟨2, ![4096, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S1024x12, .f32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  reducesTo_S1024x12_S1024_d1 : S1024x12.ReducesTo [1] S1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.BlockValue.lean ====
/-
  What the kernel's body stores, entry by entry.

  The body holds a 256 × 1024 block of x, the 1 × 1024 row of mean phases and the whole 1024 × 4096 weight array, and
  stores one 256 × 4096 block. It spreads the row over the block's 256 rows, multiplies, takes the cosine, narrows
  the format (which changes no value on the extended reals) and multiplies by the weights into a zero accumulator.
  So the stored block's entry (p, q) is
      Σ_{k < 1024} cos (x_blk(p, k) · row(0, k)) · w(k, q):
  the product is the plain sum over k, the spread row reads its entry k in every row p, and the casts between equal
  shapes are the identity.
-/
import proofs.«108212_j8555574854205_2_alg».proof.Proof.Gen.KernelIdeal.Skeleton
import proofs.«108212_j8555574854205_2_alg».proof.Proof.LibPlainDot
import Idealize.ShloMosaic.Lib.Pipeline.Value
import Idealize.ShloMosaic.Lib.ValueIdx

noncomputable section

namespace Cert.KernelIdeal.BlockValue

open Cert.KernelIdeal Cert.KernelIdeal.Gen Idealize.ShloMosaic Idealize.ShloMosaic.ValueIdx

/-- The row of mean phases spread over the block's rows reads, at (p, k), the row's entry k. -/
theorem spread_row (v1 : Vec Ideal S1x1024 .f32) (p : Fin 256) (k : Fin 1024) :
    broadcastTo S256x1024 (shapeCast S1x1024 v1 shapeCasts_S1x1024_S1x1024) broadcasts_S1x1024_S256x1024 (ix2 p k)
      = v1 (ix2 (0 : Fin 1) k) := by
  rw [shapeCast_self]
  exact broadcastTo_apply v1 broadcasts_S1x1024_S256x1024 (ix2 p k) (ix2 (0 : Fin 1) k) fun a => by
    match a with
    | ⟨0, _⟩ => show (0 : ℕ) = if (1 : ℕ) = 1 then 0 else _; rw [if_pos rfl]
    | ⟨1, _⟩ => show k.val = if (1024 : ℕ) = 1 then 0 else k.val; rw [if_neg (by decide)]

/-- The stored block at (p, q): the sum over k of the cosine of the block's entry (p, k) scaled by the row's
    entry k, times the weight (k, q). -/
theorem stored_entry (v0 : Vec Ideal S256x1024 .f32) (v1 : Vec Ideal S1x1024 .f32) (v7 : Vec Ideal S1024x4096 .bf16)
    (p : Fin 256) (q : Fin 4096) :
    k0_pay1 v0 v1 v7 (ix2 p q)
      = ∑ k : Fin 1024, Ideal.cos (v0 (ix2 p k) * v1 (ix2 (0 : Fin 1) k)) * v7 (ix2 k q) := by
  unfold k0_pay1
  refine (Cert.LibPlainDot.matmul_plain 256 1024 4096 none _ _ (ix2 p q)).trans ?_
  refine Finset.sum_congr rfl fun k _ => ?_
  show Ideal.cos (v0 (ix2 p k)
      * broadcastTo S256x1024 (shapeCast S1x1024 v1 shapeCasts_S1x1024_S1x1024) broadcasts_S1x1024_S256x1024 (ix2 p k))
      * shapeCast S1024x4096 v7 shapeCasts_S1024x4096_S1024x4096 (ix2 k q) = _
  rw [spread_row, shapeCast_self]

end Cert.KernelIdeal.BlockValue

end
-- ==== Proof.CosineProduct.lean ====
/-
  The cosine-modulated matrix product, as one function of the three argument arrays.

  x is 4096 × 1024, w is 1024 × 4096 and ph is 1024 × 12. Row k of ph has the mean
      μ k = (0 + Σ_{j < 12} ph(k, j)) / 12,
  column k of x is scaled by μ k, the cosine is taken entry by entry, and the result is multiplied by w:
      out(r, c) = Σ_{k < 1024} cos (x(r, k) · μ k) · w(k, c).
  Everything is read on the extended reals: the sum over a row starts from the zero word's value, the quotient is the
  extended reals' division by the value of the word of 12.0, and the cosine is the extended reals' (the real cosine on
  the finite values). Both programs compute exactly this expression, entry by entry, with the summands in this order,
  so no law of arithmetic beyond "a product accumulated into zero is the plain sum" is needed to join them, and no
  finiteness of the inputs is used.
-/
import Idealize.ShloMosaic.PureOps.Ideal
import Idealize.ShloMosaic.Lib.ValueIdx

noncomputable section

namespace Cert.CosineProduct

open Idealize.ShloMosaic Idealize.ShloMosaic.ValueIdx

/-- The mean of row `k` of the phases: the twelve entries summed from zero, divided by twelve. -/
def phaseMean (ph : FVec Ideal ⟨2, ![1024, 12]⟩ .f32) (k : Fin 1024) : EReal :=
  Ideal.div (Ideal.ofBits .f32 0x00000000#32 + ∑ j : Fin 12, ph (ix2 k j)) (Ideal.ofBits .f32 0x41400000#32)

/-- The coefficient at row `r`, column `k`: the cosine of the entry scaled by its column's mean phase. -/
def coef (x : FVec Ideal ⟨2, ![4096, 1024]⟩ .f32) (ph : FVec Ideal ⟨2, ![1024, 12]⟩ .f32) (r : Fin 4096) (k : Fin 1024) : EReal :=
  Ideal.cos (x (ix2 r k) * phaseMean ph k)

/-- The result: the coefficients' product with the weights, each entry one sum over the 1024 columns. -/
def out (x : FVec Ideal ⟨2, ![4096, 1024]⟩ .f32) (w : FVec Ideal ⟨2, ![1024, 4096]⟩ .f32) (ph : FVec Ideal ⟨2, ![1024, 12]⟩ .f32) :
    FVec Ideal ⟨2, ![4096, 4096]⟩ .f32 :=
  fun i => ∑ k : Fin 1024, coef x ph (i 0) k * w (ix2 k (i 1))

end Cert.CosineProduct

end
-- ==== Proof.MeanStage.lean ====
/-
  The host's mean of a row of phases, read at one position.

  Both programs take the mean the same way: the 1024 × 12 array is summed along its second axis starting from the
  zero word, and the 1024 sums are divided, entry by entry, by the word of 12.0 spread over the 1024 positions. At
  position k this is (0 + Σ_{j < 12} ph(k, j)) / 12 on the extended reals: the sum along one axis is the initial value
  plus the sum over that axis's coordinates, and a spread scalar reads the scalar everywhere.
-/
import proofs.«108212_j8555574854205_2_alg».proof.Proof.CosineProduct
import Idealize.ShloMosaic.PureOps.Ideal.Laws
import Idealize.ShloMosaic.Lib.Pipeline.Value

noncomputable section

namespace Cert.MeanStage

open Idealize.ShloMosaic Idealize.ShloMosaic.ValueIdx Cert.CosineProduct

/-- The host's row sums divided by the spread twelve, at position `k`, are the mean phase of row `k`. -/
theorem mean_at (ph : FVec Ideal ⟨2, ![1024, 12]⟩ .f32)
    (hr : (⟨2, ![1024, 12]⟩ : Shape).ReducesTo [1] ⟨1, ![1024]⟩) (h0 : 0 < (⟨0, ![]⟩ : Shape).numel)
    (hb : (⟨0, ![]⟩ : Shape).BroadcastsInDim ⟨1, ![1024]⟩ (![] : Fin 0 → Fin 1)) (k : Fin 1024) :
    Host.divf (Host.reduceAdd ph (constant (F := Ideal) ⟨0, ![]⟩ .f32 0x00000000#32) hr h0)
        (broadcastInDim ⟨1, ![1024]⟩ ![] hb (constant (F := Ideal) ⟨0, ![]⟩ .f32 0x41400000#32)) (ix1 k)
      = phaseMean ph k := by
  have hsum : Host.reduceAdd ph (constant (F := Ideal) ⟨0, ![]⟩ .f32 0x00000000#32) hr h0 (ix1 k)
      = Ideal.ofBits .f32 0x00000000#32 + ∑ j : Fin 12, ph (ix2 k j) := by
    simp only [Host.reduceAdd, Ideal.hostReduceAdd_def]
    rw [Ideal.hostReduceAdd_single hr (by decide)]
    show Ideal.ofBits .f32 0x00000000#32 + _ = _
    refine congrArg (_ + ·) (Finset.sum_congr rfl fun j _ => ?_)
    exact congrArg ph (funext fun a => Fin.ext (by match a with | ⟨0, _⟩ => rfl | ⟨1, _⟩ => rfl))
  show Ideal.div (Host.reduceAdd ph (constant (F := Ideal) ⟨0, ![]⟩ .f32 0x00000000#32) hr h0 (ix1 k))
      (Ideal.ofBits .f32 0x41400000#32) = _
  rw [hsum]
  rfl

end Cert.MeanStage

end
-- ==== Proof.RegionEntry.lean ====
/-
  What the kernel's region finds in the two arrays the host wrote before it.

  Before the region the host computes the row of mean phases — the row sums of the phases divided by twelve, re-laid
  from 1024 entries to a 1 × 1024 row — and narrows the weights' format. Read on the extended reals, the row's entry
  (0, k) is the mean phase of row k (re-laying keeps the row-major position, and position k of the 1 × 1024 row is
  position k of the vector), and the narrowed weights are the weights, entry by entry.
-/
import proofs.«108212_j8555574854205_2_alg».proof.Proof.Gen.KernelIdeal.Frame
import proofs.«108212_j8555574854205_2_alg».proof.Proof.MeanStage
import Idealize.ShloMosaic.Lib.StableHlo.Run
import Idealize.ShloMosaic.Lib.Pipeline.Value
import Idealize.ShloMosaic.Lib.ValueIdx

noncomputable section

namespace Cert.KernelIdeal.RegionEntry

open Cert.KernelIdeal Cert.KernelIdeal.Gen Idealize.ShloMosaic Idealize.ShloMosaic.TcCoe Idealize.SL.Sem
open Idealize.ShloMosaic.StableHlo Idealize.ShloMosaic.ValueIdx Cert.CosineProduct

variable (m : (ℓ : Loc nD τ sig) → Buf (Elt Ideal) ℓ)

/-- The row of mean phases as the region finds it: the host's operations on the phases as launched. -/
theorem row_term (c : Dev nD) :
    (V m c main_v3 : S1x1024.Idx → EReal)
      = shapeCast S1x1024 (Host.divf
          (Host.reduceAdd (m ((c : Thread nD τ).loc main_arg2)) (constant (F := Ideal) S_ .f32 0x00000000#32)
            reducesTo_S1024x12_S1024_d1 h_S_)
          (broadcastInDim S1024 ![] bcast_S_S1024 (constant (F := Ideal) S_ .f32 0x41400000#32)))
        shapeCasts_S1024_S1x1024 := by
  dsimp only [Gen.V, Gen.hostOps0]
  after_results
  rfl

/-- Its entry (0, k) is the mean phase of row k. -/
theorem row_at (c : Dev nD) (u : Fin 1) (k : Fin 1024) :
    (V m c main_v3 : S1x1024.Idx → EReal) (ix2 u k) = phaseMean (m ((c : Thread nD τ).loc main_arg2)) k := by
  rw [row_term]
  refine (shapeCast_apply _ shapeCasts_S1024_S1x1024 (ix2 u k) (ix1 k) ?_).trans
    (Cert.MeanStage.mean_at (m ((c : Thread nD τ).loc main_arg2)) reducesTo_S1024x12_S1024_d1 h_S_ bcast_S_S1024 k)
  rw [Shape.rowMajor_val_one, Shape.rowMajor_val_two]
  show k.val = u.val * 1024 + k.val
  have := u.isLt
  omega

/-- The narrowed weights as the region finds them: the weights as launched, their format changed. -/
theorem weights_term (c : Dev nD) :
    @Eq (FVec Ideal S1024x4096 .bf16) (V m c main_v4)
      (truncf (F := Ideal) .bf16 (m ((c : Thread nD τ).loc main_arg1) : FVec Ideal S1024x4096 .f32) bitsLt_bf16_f32) := by
  dsimp only [Gen.V, Gen.hostOps0]
  after_results

/-- Entry by entry they are the weights: the format change is the identity on the extended reals. -/
theorem weights_at (c : Dev nD) (j : S1024x4096.Idx) :
    (V m c main_v4 : S1024x4096.Idx → EReal) j = (m ((c : Thread nD τ).loc main_arg1) : S1024x4096.Idx → EReal) j :=
  congrFun (weights_term m c) j

end Cert.KernelIdeal.RegionEntry

end
-- ==== Proof.ArrayValue.lean ====
/-
  From the blocks to the whole result array.

  The grid has 16 points. At point t the body reads rows 256·t … 256·t + 255 of x (all 1024 columns), the whole row
  of mean phases and the whole weight array, and the block it stores is written back to rows 256·t … 256·t + 255 of
  the result (all 4096 columns). By the block's entries (the sum over k of cos(x_blk(p, k) · row(0, k)) · w(k, q)) and
  what the region finds in the row and the weights, the block written back at point t is the restriction of the
  cosine-modulated product of the arguments to those rows. Row r lies in the block of point r / 256, so the 16 blocks
  cover the array, and the array ends holding the product.
-/
import proofs.«108212_j8555574854205_2_alg».proof.Proof.Gen.KernelIdeal.Value
import proofs.«108212_j8555574854205_2_alg».proof.Proof.BlockValue
import proofs.«108212_j8555574854205_2_alg».proof.Proof.RegionEntry

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.CosineProduct

variable (m : (ℓ : Loc nD τ sig) → Buf (Elt Ideal) ℓ) (ρ : Dev nD → PrngReg)

/-- The origin of every block's rectangle. -/
theorem origin : (![0, 0] : Fin 2 → Nat) = fun _ => 0 := funext fun a => by fin_cases a <;> rfl

/-- The windows' block indices at point t: the x window and the result window are on block row t, block column 0;
    the row of means and the weights are always on block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A stored block whose inputs are the rows of x from row r − p on, the row of means and the weights holds, at
    (p, q), the product's entry (r, s), when column q of the block's weights is column s of the weights. -/
theorem stored_is_out (x : FVec Ideal ⟨2, ![4096, 1024]⟩ .f32) (w : FVec Ideal ⟨2, ![1024, 4096]⟩ .f32)
    (ph : FVec Ideal ⟨2, ![1024, 12]⟩ .f32)
    (v0 : Vec Ideal S256x1024 .f32) (v1 : Vec Ideal S1x1024 .f32) (v7 : Vec Ideal S1024x4096 .bf16)
    (p : Fin 256) (q : Fin 4096) (r : Fin 4096) (s : Fin 4096)
    (h0 : ∀ k : Fin 1024, v0 (ix2 p k) = x (ix2 r k))
    (h1 : ∀ k : Fin 1024, v1 (ix2 (0 : Fin 1) k) = phaseMean ph k)
    (h7 : ∀ k : Fin 1024, v7 (ix2 k q) = w (ix2 k s)) :
    k0_pay1 v0 v1 v7 (ix2 p q) = out x w ph (ix2 r s) := by
  refine (BlockValue.stored_entry v0 v1 v7 p q).trans ?_
  unfold out coef
  refine Finset.sum_congr rfl fun k _ => ?_
  rw [h0 k, h1 k, h7 k]

/-- What point t writes back is block t of the product of the arguments. -/
theorem flushed_eq (c : Dev nD) (t : Fin cfg0.N) :
    (dats m 0 c).flushed 3 t = ((cfg0.win 3).blk t).view.read (Elt Ideal)
      (out (m ((c : Thread nD τ).loc main_arg0)) (m ((c : Thread nD τ).loc main_arg1)) (m ((c : Thread nD τ).loc main_arg2))) := by
  rw [Value.flushed3]
  unfold out0_3
  rw [View.canon_unit_zero origin]
  simp only [View.ld_unit_zero (S := S256x1024) origin, View.ld_unit_zero (S := S1x1024) origin,
    View.ld_unit_zero (S := S1024x4096) origin]
  obtain ⟨e0, e1, e2, e3, e4, e5, e6, e7⟩ := block_indices t
  have ht : t.val < 16 := lt_of_lt_of_eq t.isLt N_0
  funext y
  obtain ⟨p, q, rfl⟩ : ∃ (p : Fin 256) (q : Fin 4096), y = ix2 p q := ⟨y 0, y 1, eq_ix2 y⟩
  have eo : ((cfg0.win 3).blk t).view.emb (ix2 p q) = ix2 (⟨t.val * 256 + p.val, by omega⟩ : Fin 4096) q :=
    funext fun a => Fin.ext (by
      match a with
      | ⟨0, _⟩ => show win0_3.index t (0 : Fin 2) * 256 + 1 * p.val = t.val * 256 + p.val; omega
      | ⟨1, _⟩ => show win0_3.index t (1 : Fin 2) * 4096 + 1 * q.val = q.val; omega)
  show k0_pay1 (iblk m c 0 t) (iblk m c 1 t) (iblk m c 2 t) (ix2 p q)
    = out (m ((c : Thread nD τ).loc main_arg0)) (m ((c : Thread nD τ).loc main_arg1)) (m ((c : Thread nD τ).loc main_arg2))
        (((cfg0.win 3).blk t).view.emb (ix2 p q))
  rw [eo]
  refine stored_is_out (m ((c : Thread nD τ).loc main_arg0)) (m ((c : Thread nD τ).loc main_arg1))
    (m ((c : Thread nD τ).loc main_arg2)) (iblk m c 0 t) (iblk m c 1 t) (iblk m c 2 t) p q
    (⟨t.val * 256 + p.val, by omega⟩ : Fin 4096) q ?_ ?_ ?_
  · intro k
    show V m c main_arg0 (((cfg0.win 0).blk t).view.emb (ix2 p k)) = _
    rw [V_main_arg0]
    refine congrArg (m ((c : Thread nD τ).loc main_arg0)) (funext fun a => Fin.ext ?_)
    match a with
    | ⟨0, _⟩ => show win0_0.index t (0 : Fin 2) * 256 + 1 * p.val = t.val * 256 + p.val; omega
    | ⟨1, _⟩ => show win0_0.index t (1 : Fin 2) * 1024 + 1 * k.val = k.val; omega
  · intro k
    have e : ((cfg0.win 1).blk t).view.emb (ix2 (0 : Fin 1) k) = ix2 (0 : Fin 1) k :=
      funext fun a => Fin.ext (by
        match a with
        | ⟨0, _⟩ => show win0_1.index t (0 : Fin 2) * 1 + 1 * 0 = 0; omega
        | ⟨1, _⟩ => show win0_1.index t (1 : Fin 2) * 1024 + 1 * k.val = k.val; omega)
    show V m c main_v3 (((cfg0.win 1).blk t).view.emb (ix2 (0 : Fin 1) k)) = _
    rw [e]
    exact RegionEntry.row_at m c 0 k
  · intro k
    have e : ((cfg0.win 2).blk t).view.emb (ix2 k q) = ix2 k q :=
      funext fun a => Fin.ext (by
        match a with
        | ⟨0, _⟩ => show win0_2.index t (0 : Fin 2) * 1024 + 1 * k.val = k.val; omega
        | ⟨1, _⟩ => show win0_2.index t (1 : Fin 2) * 4096 + 1 * q.val = q.val; omega)
    show V m c main_v4 (((cfg0.win 2).blk t).view.emb (ix2 k q)) = _
    rw [e]
    exact RegionEntry.weights_at m c (ix2 k q)

/-- An index of the result is in point t's block iff each coordinate is in the block's range on its axis. -/
theorem mem_block (t : Fin cfg0.N) (i : S4096x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v5).slice (win0_3.rect t)).set ↔ _
  rw [View.set_slice_whole, Rect.mem_set_unit]
  exact Iff.rfl

/-- Every index of the result is in the block of the point its row falls in, and every point writes back. -/
theorem covered (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 16 := N_0
  obtain ⟨t, htv⟩ : ∃ t : Fin cfg0.N, t.val = (i 0).val / 256 := ⟨⟨(i 0).val / 256, by omega⟩, rfl⟩
  obtain ⟨-, -, -, -, -, -, e6, e7⟩ := block_indices t
  refine ⟨t, flush0_3 t, ?_⟩
  rw [mem_block]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 4096 ≤ (i 1).val ∧ (i 1).val < win0_3.index t (1 : Fin 2) * 4096 + 4096
    omega

/-- The result array after the run is the product of the arguments. -/
theorem final (c : Dev nD) :
    (dats m 0 c).arrAt 3 cfg0.N
      = out (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run: every weakly fair execution ends with the result array at the product of the arguments and
    the arguments unchanged. -/
theorem run : θ_run defs (onTc (τ := τ) (main (F := Ideal))) ⟨m, fun _ => 0, ρ⟩ fun r => ∀ c : Dev nD,
      r.2.mem ((c : Thread nD τ).loc main_v5)
        = out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.ReferenceValue.lean ====
/-
  The reference computes the cosine-modulated product.

  Read one operation at a time, the reference's result at (r, c) is the sum over k of the cosine stage at (r, k)
  times the weight (k, c); the cosine stage is the cosine of the argument's entry times the twice-spread mean: the
  vector of means made a 1 × 1024 row and the row spread over the 4096 rows reads, at (r, k), the mean at k; and the
  mean at k is the host's row sum divided by twelve. That is the specification's expression, term for term.
-/
import proofs.«108212_j8555574854205_2_alg».proof.Proof.Gen.ReferenceIdeal.Read
import proofs.«108212_j8555574854205_2_alg».proof.Proof.MeanStage

noncomputable section

namespace Cert.ReferenceIdeal.RefValue

open Cert.ReferenceIdeal Cert.ReferenceIdeal.Gen Cert.ReferenceIdeal.Read
open Idealize.ShloMosaic Idealize.ShloMosaic.ValueIdx Cert.CosineProduct

/-- The divided row sums at position k are the mean phase of row k. -/
theorem mean_stage (x2 : FVec Ideal S1024x12 .f32) (k : Fin 1024) :
    val_main_v2 (F := Ideal) x2 (ix1 k) = phaseMean x2 k :=
  Cert.MeanStage.mean_at x2 reducesTo_S1024x12_S1024_d1 h_S_ bcast_S_S1024 k

/-- The cosine stage at (r, k) is the specification's coefficient. -/
theorem cos_stage (x0 : FVec Ideal S4096x1024 .f32) (x2 : FVec Ideal S1024x12 .f32) (r : Fin 4096) (k : Fin 1024) :
    val_main_v6 (F := Ideal) x0 x2 (ix2 r k) = coef x0 x2 r k := by
  rw [val_main_v6_apply, val_main_v5_apply, val_main_v4_apply, val_main_v3_apply]
  have e : idx_main_v3 (idx_main_v4 (ix2 r k)) = ix1 k :=
    funext fun a => Fin.ext (by match a with | ⟨0, _⟩ => rfl)
  rw [e, mean_stage]
  rfl

/-- The reference's result is the specification's function of the three arguments. -/
theorem result_eq (x0 : FVec Ideal S4096x1024 .f32) (x1 : FVec Ideal S1024x4096 .f32) (x2 : FVec Ideal S1024x12 .f32) :
    val_main_v7 (F := Ideal) x0 x1 x2 = out x0 x1 x2 := by
  funext i
  obtain ⟨r, c, rfl⟩ : ∃ (r : Fin 4096) (c : Fin 4096), i = ix2 r c := ⟨i 0, i 1, eq_ix2 i⟩
  rw [val_main_v7_apply]
  show _ = ∑ k : Fin 1024, coef x0 x2 r k * x1 (ix2 k c)
  refine Finset.sum_congr rfl fun k _ => ?_
  have el : lidx_main_v7 (ix2 r c) k = ix2 r k :=
    funext fun a => Fin.ext (by match a with | ⟨0, _⟩ => rfl | ⟨1, _⟩ => rfl)
  have er : ridx_main_v7 (ix2 r c) k = ix2 k c :=
    funext fun a => Fin.ext (by match a with | ⟨0, _⟩ => rfl | ⟨1, _⟩ => rfl)
  rw [el, er, cos_stage]

end Cert.ReferenceIdeal.RefValue

end
-- ==== Proof.lean ====
/-
  The cosine-modulated matrix product: the kernel against its reference, on the extended reals.

  Both programs compute, from x (4096 × 1024), the weights w (1024 × 4096) and the phases ph (1024 × 12),
      out(r, c) = Σ_{k < 1024} cos (x(r, k) · μ k) · w(k, c),      μ k = (0 + Σ_{j < 12} ph(k, j)) / 12.
  The kernel takes the means and narrows the weights' format on the host, then runs a grid of 16 points; point t
  holds rows 256·t … 256·t + 255 of x, the row of means and all the weights, and writes the same rows of the result:
  each entry is the product accumulated into zero, which is the plain sum over k, and the narrowing of a format
  changes no value on the extended reals. The 16 blocks cover the result, so the array ends at `out` of the
  arguments. The reference spreads the means over the rows, multiplies, takes the cosine and contracts with the
  weights: the same sum, term for term. No law of arithmetic that could fail at an infinity is used, so the
  precondition is not opened.

  The three frames are the generated ones (the reference's is its generated run with the result dropped); no
  operation was rewritten when the kernel was idealized, so that conjunct is `True`.
-/
import proofs.«108212_j8555574854205_2_alg».proof.Defs
import proofs.«108212_j8555574854205_2_alg».proof.Proof.Gen.Kernel
import proofs.«108212_j8555574854205_2_alg».proof.Proof.Gen.Kernel.Skeleton
import proofs.«108212_j8555574854205_2_alg».proof.Proof.Gen.Kernel.Launch
import proofs.«108212_j8555574854205_2_alg».proof.Proof.Gen.Kernel.Points
import proofs.«108212_j8555574854205_2_alg».proof.Proof.Gen.Kernel.Frame
import proofs.«108212_j8555574854205_2_alg».proof.Proof.Gen.KernelIdeal
import proofs.«108212_j8555574854205_2_alg».proof.Proof.Gen.KernelIdeal.Skeleton
import proofs.«108212_j8555574854205_2_alg».proof.Proof.Gen.KernelIdeal.Launch
import proofs.«108212_j8555574854205_2_alg».proof.Proof.Gen.KernelIdeal.Points
import proofs.«108212_j8555574854205_2_alg».proof.Proof.Gen.KernelIdeal.Frame
import proofs.«108212_j8555574854205_2_alg».proof.Proof.Gen.ReferenceIdeal
import proofs.«108212_j8555574854205_2_alg».proof.Proof.Gen.Pre_finite_inputs
import proofs.«108212_j8555574854205_2_alg».proof.Proof.Gen.KernelIdeal.Value
import proofs.«108212_j8555574854205_2_alg».proof.Proof.Gen.ReferenceIdeal.Run
import proofs.«108212_j8555574854205_2_alg».proof.Proof.Gen.ReferenceIdeal.Read
import proofs.«108212_j8555574854205_2_alg».proof.Proof.ArrayValue
import proofs.«108212_j8555574854205_2_alg».proof.Proof.ReferenceValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel :=
  fun m ρ _ => Cert.Kernel.Gen.frame m ρ

/-- So does the kernel read on the extended reals. -/
theorem frame_kernel_ideal : Cert.frame_KernelIdeal :=
  fun m ρ _ => Cert.KernelIdeal.Gen.frame m ρ

/-- The reference runs and leaves its arguments unchanged: its run with the result dropped. -/
theorem frame_reference : Cert.frame_ReferenceIdeal :=
  fun m ρ _ => (θ_run Cert.ReferenceIdeal.defs _ _).mono (fun _ h c => (h c).2)
    (Cert.ReferenceIdeal.Value.run (F := Ideal) m ρ)

/-- From memories agreeing on the three arguments both programs end with the result at the cosine-modulated
    product of the arguments: the kernel's array by the cover of its 16 blocks, the reference's last stage by
    reading it one operation at a time. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
